-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S_ : Shape := ⟨0, ![]⟩

class Facts : Prop where
  bcast_S_S128x512x14x14 : S_.BroadcastsInDim S128x512x14x14 (![] : Fin 0 → Fin S128x512x14x14.rank)
  reducesTo_S128x512x14x14_S_d0_1_2_3 : S128x512x14x14.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S128x512x14x14 .f32) (main_arg1 : FVec F S512x32 .f32) (main_arg2 : FVec F S32 .f32) (main_arg3 : FVec F S32x512 .f32) (main_arg4 : FVec F S512 .f32) : IVec S_ 1 :=
  let main_v0 : FVec F S128x512x14x14 .f32 := Host.absf main_arg0
  let main_cst : FVec F S_ .f32 := constant S_ .f32 0x7F800000#32
  let main_v1 : FVec F S128x512x14x14 .f32 := broadcastInDim S128x512x14x14 ![] bcast_S_S128x512x14x14 main_cst
  let main_v2 : IVec S128x512x14x14 1 := cmpf .olt main_v0 main_v1
  let main_c : IVec S_ 1 := constantI S_ 1 1#1
  let main_v3 : IVec S_ 1 := (fun x v => Host.reduce IntOp.andi x v reducesTo_S128x512x14x14_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_v13 main_v16
-- ==== Kernel.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S14x14x128x512 : Shape := ⟨4, ![14, 14, 128, 512]⟩
abbrev S196x128x512 : Shape := ⟨3, ![196, 128, 512]⟩
abbrev S1x32 : Shape := ⟨2, ![1, 32]⟩
abbrev S1x512 : Shape := ⟨2, ![1, 512]⟩
abbrev S196x32x512 : Shape := ⟨3, ![196, 32, 512]⟩
abbrev S32x32 : Shape := ⟨2, ![32, 32]⟩
abbrev S1x32x512 : Shape := ⟨3, ![1, 32, 512]⟩

abbrev nBuf : Space → Nat
  | .hbm => 13
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S14x14x128x512, .f32⟩
  | .hbm, ⟨6, _⟩ => ⟨S196x128x512, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S196x128x512, .f32⟩
  | .hbm, ⟨11, _⟩ => ⟨S14x14x128x512, .f32⟩
  | .hbm, ⟨12, _⟩ => ⟨S128x512x14x14, .f32⟩
  | .local _ .vmem, ⟨0, _⟩ => ⟨S196x32x512, .f32⟩
  | .local _ .vmem, ⟨1, _⟩ => ⟨S196x32x512, .f32⟩
  | .local _ .vmem, ⟨2, _⟩ => ⟨S32x512, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S196x32x512, .f32⟩
  | .local _ .vmem, ⟨7, _⟩ => ⟨S196x32x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S196x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S196x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S14x14x128x512_2_3_0_1 : S128x512x14x14.Transposes [2, 3, 0, 1] S14x14x128x512
  shapeCasts_S14x14x128x512_S196x128x512 : S14x14x128x512.ShapeCasts S196x128x512
  transposes_S512x32_S32x512_1_0 : S512x32.Transposes [1, 0] S32x512
  shapeCasts_S32_S1x32 : S32.ShapeCasts S1x32
  shapeCasts_S512_S1x512 : S512.ShapeCasts S1x512
  inb_S196x32x512_S196x32x512_0_0_0 : ∀ a, (![0, 0, 0] : Fin 3 → Nat) a + S196x32x512.size a ≤ S196x32x512.size a
  h_S196x32x512 : 0 < S196x32x512.numel
  shapeCasts_S196x32x512_S196x32x512 : S196x32x512.ShapeCasts S196x32x512
  reduces_S196x32x512_S32x512 : S196x32x512.Reduces [0] S32x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S32x32 : S1x32.Broadcasts S32x32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  shapeCasts_S32x512_S1x32x512 : S32x512.ShapeCasts S1x32x512
  broadcasts_S1x32x512_S196x32x512 : S1x32x512.Broadcasts S196x32x512
  shapeCasts_S196x128x512_S14x14x128x512 : S196x128x512.ShapeCasts S14x14x128x512
  transposes_S14x14x128x512_S128x512x14x14_2_3_0_1 : S14x14x128x512.Transposes [2, 3, 0, 1] S128x512x14x14
  dot_S32x512_S32x512_S32x32_1_1_0_0_n_n_wf : DotDims.WF S32x512 S32x512 S32x32 [1] [1] [0] [0] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S196x32x512.size a ≤ S196x128x512.size a
  hwx0_0 : ∀ i : grid0.Coords, EltTy.bits .f32 = 32 ∨ (Rect.block (s := S196x128x512) S196x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S196x32x512.size a ≤ S196x128x512.size a
  hwx0_5 : ∀ i : grid0.Coords, EltTy.bits .f32 = 32 ∨ (Rect.block (s := S196x128x512) S196x32x512.size (cc0_transform_5 i) (hinb0_5 i)).WholeWords (EltTy.packing .f32)

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v1) S196x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S196x32x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x14x14 : Shape := ⟨4, ![128, 512, 14, 14]⟩
abbrev S512x32 : Shape := ⟨2, ![512, 32]⟩
abbrev S32 : Shape := ⟨1, ![32]⟩
abbrev S32x512 : Shape := ⟨2, ![32, 512]⟩
abbrev S512 : Shape := ⟨1, ![512]⟩
abbrev S128x512x196 : Shape := ⟨3, ![128, 512, 196]⟩
abbrev S_ : Shape := ⟨0, ![]⟩
abbrev S128x512x256 : Shape := ⟨3, ![128, 512, 256]⟩
abbrev S1x32 : Shape := ⟨2, ![1, 32]⟩
abbrev S1x512 : Shape := ⟨2, ![1, 512]⟩
abbrev S8x512x256 : Shape := ⟨3, ![8, 512, 256]⟩
abbrev S8x512 : Shape := ⟨2, ![8, 512]⟩
abbrev S8x32 : Shape := ⟨2, ![8, 32]⟩
abbrev S8x512x1 : Shape := ⟨3, ![8, 512, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S128x512x196, .f32⟩
  | .hbm, ⟨6, _⟩ => ⟨S_, .i32⟩
  | .hbm, ⟨7, _⟩ => ⟨S_, .f32⟩
  | .hbm, ⟨8, _⟩ => ⟨S128x512x256, .f32⟩
  | .hbm, ⟨9, _⟩ => ⟨S1x32, .f32⟩
  | .hbm, ⟨10, _⟩ => ⟨S1x512, .f32⟩
  | .hbm, ⟨11, _⟩ => ⟨S128x512x256, .f32⟩
  | .hbm, ⟨12, _⟩ => ⟨S128x512x196, .f32⟩
  | .hbm, ⟨13, _⟩ => ⟨S128x512x14x14, .f32⟩
  | .local _ .vmem, ⟨0, _⟩ => ⟨S8x512x256, .f32⟩
  | .local _ .vmem, ⟨1, _⟩ => ⟨S8x512x256, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S8x512x256, .f32⟩
  | .local _ .vmem, ⟨7, _⟩ => ⟨S8x512x256, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x512x14x14_S128x512x196 : S128x512x14x14.ShapeCasts S128x512x196
  pads_S128x512x196_S128x512x256_000_000_0600 : S128x512x196.Pads (![0, 0, 0] : Fin 3 → Nat) ![0, 0, 60] ![0, 0, 0] S128x512x256
  h_S_ : 0 < S_.numel
  shapeCasts_S32_S1x32 : S32.ShapeCasts S1x32
  shapeCasts_S512_S1x512 : S512.ShapeCasts S1x512
  inb_S8x512x256_S8x512x256_0_0_0 : ∀ a, (![0, 0, 0] : Fin 3 → Nat) a + S8x512x256.size a ≤ S8x512x256.size a
  h_S8x512x256 : 0 < S8x512x256.numel
  shapeCasts_S8x512x256_S8x512x256 : S8x512x256.ShapeCasts S8x512x256
  reduces_S8x512x256_S8x512 : S8x512x256.Reduces [2] S8x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  shapeCasts_S8x512_S8x512x1 : S8x512.ShapeCasts S8x512x1
  broadcasts_S8x512x1_S8x512x256 : S8x512x1.Broadcasts S8x512x256
  slices_S128x512x256_S128x512x196_0_0_0 : S128x512x256.Slices ![0, 0, 0] S128x512x196
  shapeCasts_S128x512x196_S128x512x14x14 : S128x512x196.ShapeCasts S128x512x14x14
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S128x512x256.size a
  hwx0_0 : ∀ i : grid0.Coords, EltTy.bits .f32 = 32 ∨ (Rect.block (s := S128x512x256) S8x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x256.size a ≤ S128x512x256.size a
  hwx0_5 : ∀ i : grid0.Coords, EltTy.bits .f32 = 32 ∨ (Rect.block (s := S128x512x256) S8x512x256.size (cc0_transform_5 i) (hinb0_5 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v1) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Gate.lean ====
/-
  The squeeze-and-excite block on the extended reals, as ONE function of its five argument arrays.

  For a sample n and a channel c the block multiplies every spatial entry x[n, c, h, w] by a scale that depends on
  the sample's pooled row only: the mean of each channel over the 14 × 14 spatial positions (the sum times the
  constant the programs use for 1/196), pushed through a 512 → 32 linear layer with bias and a clamp at zero, a
  32 → 512 linear layer with bias, and the logistic function. `gate` is that scale as a function of the pooled row
  and the four parameter arrays; `result` is the block.
-/
import Idealize.ShloMosaic.PureOps.Ideal
import Idealize.ShloMosaic.Lib.ValueIdx

open scoped BigOperators

noncomputable section

namespace Cert.SqEx

open Idealize.ShloMosaic Idealize.ShloMosaic.ValueIdx

/-- The constant both programs multiply a spatial sum by: the single-precision number nearest 1/196, read exactly. -/
abbrev invHW : EReal := Ideal.ofBits .f32 0x3BA72F05#32

/-- The scale of channel `c` from a sample's pooled row `P`: logistic (Σ_j max (Σ_k P k · W1 k j + B1 j, 0) · W2 j c + B2 c). -/
def gate (P : Fin 512 → EReal) (W1 : Fin 512 → Fin 32 → EReal) (B1 : Fin 32 → EReal)
    (W2 : Fin 32 → Fin 512 → EReal) (B2 : Fin 512 → EReal) (c : Fin 512) : EReal :=
  Ideal.logistic ((∑ j : Fin 32, max ((∑ k : Fin 512, P k * W1 k j) + B1 j) 0 * W2 j c) + B2 c)

/-- The gate depends on its arguments pointwise. -/
theorem gate_congr {P P' : Fin 512 → EReal} {W1 W1' : Fin 512 → Fin 32 → EReal} {B1 B1' : Fin 32 → EReal}
    {W2 W2' : Fin 32 → Fin 512 → EReal} {B2 B2' : Fin 512 → EReal} {c c' : Fin 512}
    (hP : ∀ k, P k = P' k) (hW1 : ∀ k j, W1 k j = W1' k j) (hB1 : ∀ j, B1 j = B1' j)
    (hW2 : ∀ j c, W2 j c = W2' j c) (hB2 : ∀ c, B2 c = B2' c) (hc : c = c') :
    gate P W1 B1 W2 B2 c = gate P' W1' B1' W2' B2' c' := by
  obtain rfl : P = P' := funext hP
  obtain rfl : W1 = W1' := funext fun k => funext (hW1 k)
  obtain rfl : B1 = B1' := funext hB1
  obtain rfl : W2 = W2' := funext fun j => funext (hW2 j)
  obtain rfl : B2 = B2' := funext hB2
  subst hc
  rfl

/-- Spatial position `s` of the flattened 14 × 14 grid, as (row, column). -/
abbrev rowOf (s : Fin 196) : Fin 14 := ⟨s.val / 14, by have := s.isLt; omega⟩
abbrev colOf (s : Fin 196) : Fin 14 := ⟨s.val % 14, Nat.mod_lt _ (by decide)⟩

/-- The pooled row of sample `n`: per channel, the sum over the 196 spatial positions times `invHW`. -/
def pooled (x : (⟨4, ![128, 512, 14, 14]⟩ : Shape).Idx → EReal) (n : Fin 128) (k : Fin 512) : EReal :=
  (∑ s : Fin 196, x (ix4 n k (rowOf s) (colOf s))) * invHW

/-- The block: every entry of `x` times its sample's and channel's scale. -/
def result (x : (⟨4, ![128, 512, 14, 14]⟩ : Shape).Idx → EReal) (w1 : (⟨2, ![512, 32]⟩ : Shape).Idx → EReal)
    (b1 : (⟨1, ![32]⟩ : Shape).Idx → EReal) (w2 : (⟨2, ![32, 512]⟩ : Shape).Idx → EReal)
    (b2 : (⟨1, ![512]⟩ : Shape).Idx → EReal) : (⟨4, ![128, 512, 14, 14]⟩ : Shape).Idx → EReal :=
  fun i => x i * gate (pooled x (i 0)) (fun k j => w1 (ix2 k j)) (fun j => b1 (ix1 j)) (fun j c => w2 (ix2 j c))
    (fun c => b2 (ix1 c)) (i 1)

end Cert.SqEx

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.KernelBody.lean ====
/-
  The kernel's body at one grid point, read at an index.

  The body holds a 196 × 32 × 512 block of the input (spatial position, sample within the slab, channel), sums it
  over the spatial axis, scales by the pooling constant, applies the two small linear layers (the first against the
  transposed first weight, contracted along its channel axis) and the logistic function, and multiplies the block by
  the resulting 32 × 512 matrix of scales, the same for every spatial position. At (s, r, c) that is the block's
  entry times the gate of row r's pooled means.
-/
import proofs.«129813_g2000007151489569_pallasbulk_1225_13_alg».proof.Proof.Gen.KernelIdeal.Skeleton
import proofs.«129813_g2000007151489569_pallasbulk_1225_13_alg».proof.Proof.Gate
import proofs.«129813_g2000007151489569_pallasbulk_1225_13_alg».proof.Proof.LibBlockReads

open scoped BigOperators

noncomputable section

namespace Cert.KernelIdeal.Body

open Idealize.ShloMosaic Idealize.ShloMosaic.ValueIdx
open Cert.KernelIdeal Cert.KernelIdeal.Gen Cert.Lib.BlockReads Cert.SqEx

/-- The stored value at (s, r, c): the block's entry times the gate of row r's pooled means over the spatial axis. -/
theorem pay_apply (x0 : Vec Ideal S196x32x512 .f32) (x1 : Vec Ideal S32x512 .f32) (x2 : Vec Ideal S1x32 .f32)
    (x3 : Vec Ideal S32x512 .f32) (x4 : Vec Ideal S1x512 .f32) (s : Fin 196) (r : Fin 32) (c : Fin 512) :
    k0_pay1 x0 x1 x2 x3 x4 (ix3 s r c)
      = x0 (ix3 s r c) * gate (fun k => (∑ s' : Fin 196, x0 (ix3 s' r k)) * invHW) (fun k j => x1 (ix2 j k))
          (fun j => x2 (ix2 0 j)) (fun j c' => x3 (ix2 j c')) (fun c' => x4 (ix2 0 c')) c := by
  unfold k0_pay1
  simp only [shapeCast_self]
  rw [mulf_apply, broadcast_slab_apply]
  refine congrArg (x0 (ix3 s r c) * ·) ?_
  unfold gate
  show Ideal.logistic _ = Ideal.logistic _
  refine congrArg Ideal.logistic ?_
  rw [addf_apply, matmul_zero_rows_apply _ rfl rfl rfl rfl rfl rfl, broadcast_row_apply]
  refine congrArg (· + x4 (ix2 0 c)) (Finset.sum_congr rfl fun j _ => ?_)
  refine congrArg (· * x3 (ix2 j c)) ?_
  rw [maximumf_apply, addf_apply, matmul_zero_cols_apply _ rfl rfl rfl rfl rfl rfl, broadcast_row_apply, broadcast_apply]
  rw [show (FloatOps.ofBits (F := Ideal) .f32 0x00000000#32 : EReal) = 0 from Ideal.ofBits_zero_f32]
  refine congrArg (fun z => max (z + x2 (ix2 0 j)) 0) (Finset.sum_congr rfl fun k _ => ?_)
  rw [mulf_apply]
  exact congrArg (fun z => z * invHW * x1 (ix2 j k)) (sum_first_axis_apply x0 _ _ _ _ r k)

end Cert.KernelIdeal.Body

end
-- ==== Proof.KernelValue.lean ====
/-
  The kernel's value: what its result array holds after the run, as a function of the argument arrays.

  Before the launch the host lines lay the input out as (spatial position, sample, channel) — a transpose and a
  flattening of the 14 × 14 grid, position s = 14 · row + column —, transpose the first weight and give the two
  biases a leading unit axis. Grid point t works on samples 32 t … 32 t + 31: its input and output blocks are the
  slab of those samples, every spatial position, every channel; the parameter blocks are the whole parameter arrays.
  So what point t writes back is that slab of ONE array: the laid-out input times the gate of each sample's pooled
  row. The four slabs tile the array, and the host lines after the launch undo the layout.
-/
import proofs.«129813_g2000007151489569_pallasbulk_1225_13_alg».proof.Proof.Gen.KernelIdeal.Frame
import proofs.«129813_g2000007151489569_pallasbulk_1225_13_alg».proof.Proof.KernelBody
import Idealize.ShloMosaic.Lib.Pipeline.Value
import Idealize.ShloMosaic.Lib.StableHlo.Run
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.SqEx Idealize.ShloMosaic.StableHlo

variable (m : (ℓ : Loc nD τ sig) → Buf (Elt Ideal) ℓ) (ρ : Dev nD → PrngReg)

/-! ## The arrays, as functions into the extended reals -/

/-- The argument arrays on core `c`. -/
abbrev argX (c : Dev nD) : S128x512x14x14.Idx → EReal := m ((c : Thread nD τ).loc main_arg0)
abbrev argW1 (c : Dev nD) : S512x32.Idx → EReal := m ((c : Thread nD τ).loc main_arg1)
abbrev argB1 (c : Dev nD) : S32.Idx → EReal := m ((c : Thread nD τ).loc main_arg2)
abbrev argW2 (c : Dev nD) : S32x512.Idx → EReal := m ((c : Thread nD τ).loc main_arg3)
abbrev argB2 (c : Dev nD) : S512.Idx → EReal := m ((c : Thread nD τ).loc main_arg4)

/-- The staged arrays as the launch finds them: the laid-out input, the transposed first weight, the first bias
    as a row, the second weight, the second bias as a row. -/
abbrev arrX (c : Dev nD) : S196x128x512.Idx → EReal := V m c main_v1
abbrev arrW1 (c : Dev nD) : S32x512.Idx → EReal := V m c main_v2
abbrev arrB1 (c : Dev nD) : S1x32.Idx → EReal := V m c main_v3
abbrev arrW2 (c : Dev nD) : S32x512.Idx → EReal := V m c main_arg3
abbrev arrB2 (c : Dev nD) : S1x512.Idx → EReal := V m c main_v4

/-! ## What the launch finds in each staged array -/

/-- The laid-out input at (s, n, k) is the argument at (n, k, row s, column s). -/
theorem entry_x (c : Dev nD) (s : Fin 196) (n : Fin 128) (k : Fin 512) :
    arrX m c (ix3 s n k)
      = argX m c (ix4 n k (rowOf s) (colOf s)) := by
  have e : arrX m c
      = shapeCast S196x128x512 (transpose S14x14x128x512 [2, 3, 0, 1] (m ((c : Thread nD τ).loc main_arg0))
          transposes_S128x512x14x14_S14x14x128x512_2_3_0_1) shapeCasts_S14x14x128x512_S196x128x512 := by
    show StableHlo.after hostOps0 (fun b => m (c, b)) (Proc.devRef .tc main_v1) = _
    after_results
    rfl
  rw [e]
  refine (shapeCast_apply _ _ _ (ix4 (rowOf s) (colOf s) n k) ?_).trans ?_
  · rw [Shape.rowMajor_val_four, Shape.rowMajor_val_three]
    show (((s.val / 14) * 14 + s.val % 14) * 128 + n.val) * 512 + k.val = (s.val * 128 + n.val) * 512 + k.val
    have := Nat.div_add_mod s.val 14
    have h2 : s.val / 14 * 14 + s.val % 14 = s.val := by omega
    rw [h2]
  · exact transpose_apply _ _ _ _ (ix4 n k (rowOf s) (colOf s)) fun b => by
      match b with
      | ⟨0, _⟩ => rfl
      | ⟨1, _⟩ => rfl
      | ⟨2, _⟩ => rfl
      | ⟨3, _⟩ => rfl

/-- The transposed first weight at (j, k) is the argument at (k, j). -/
theorem entry_w1 (c : Dev nD) (j : Fin 32) (k : Fin 512) :
    arrW1 m c (ix2 j k)
      = argW1 m c (ix2 k j) := by
  have e : arrW1 m c
      = transpose S32x512 [1, 0] (m ((c : Thread nD τ).loc main_arg1)) transposes_S512x32_S32x512_1_0 := by
    show StableHlo.after hostOps0 (fun b => m (c, b)) (Proc.devRef .tc main_v2) = _
    after_results
  rw [e]
  exact transpose_apply _ _ _ _ (ix2 k j) fun b => by
    match b with
    | ⟨0, _⟩ => rfl
    | ⟨1, _⟩ => rfl

/-- The first bias as a 1 × 32 row. -/
theorem entry_b1 (c : Dev nD) (j : Fin 32) :
    arrB1 m c (ix2 0 j) = argB1 m c (ix1 j) := by
  have e : arrB1 m c
      = shapeCast S1x32 (m ((c : Thread nD τ).loc main_arg2)) shapeCasts_S32_S1x32 := by
    show StableHlo.after hostOps0 (fun b => m (c, b)) (Proc.devRef .tc main_v3) = _
    after_results
    rfl
  rw [e]
  refine shapeCast_apply _ _ _ (ix1 j) ?_
  rw [Shape.rowMajor_val_one, Shape.rowMajor_val_two]
  show j.val = 0 * 32 + j.val
  omega

/-- The second bias as a 1 × 512 row. -/
theorem entry_b2 (c : Dev nD) (k : Fin 512) :
    arrB2 m c (ix2 0 k) = argB2 m c (ix1 k) := by
  have e : arrB2 m c
      = shapeCast S1x512 (m ((c : Thread nD τ).loc main_arg4)) shapeCasts_S512_S1x512 := by
    show StableHlo.after hostOps0 (fun b => m (c, b)) (Proc.devRef .tc main_v4) = _
    after_results
    rfl
  rw [e]
  refine shapeCast_apply _ _ _ (ix1 k) ?_
  rw [Shape.rowMajor_val_one, Shape.rowMajor_val_two]
  show k.val = 0 * 512 + k.val
  omega

/-! ## The blocks of a grid point -/

/-- The printed index maps, decided over the four grid points: the input's and the output's block index is
    (0, t, 0); every parameter's block index is (0, 0). -/
theorem idx_facts : ∀ t : Fin cfg0.N,
    win0_0.index t (0 : Fin 3) = 0 ∧ win0_0.index t (1 : Fin 3) = t.val ∧ win0_0.index t (2 : Fin 3) = 0
    ∧ win0_5.index t (0 : Fin 3) = 0 ∧ win0_5.index t (1 : Fin 3) = t.val ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The input block of point t at (s, r, k) is the laid-out input at (s, 32 t + r, k). -/
theorem iblk0_apply (c : Dev nD) (t : Fin cfg0.N) (y : S196x32x512.Idx) (i : S196x128x512.Idx)
    (h0 : (i 0).val = (y 0).val) (h1 : (i 1).val = 32 * t.val + (y 1).val) (h2 : (i 2).val = (y 2).val) :
    (iblk m c 0 t : Vec Ideal S196x32x512 .f32) y = arrX m c i := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 196 + 1 * (y 0).val = (i 0).val; rw [e0, h0]; omega
  | ⟨1, _⟩ => show win0_0.index t (1 : Fin 3) * 32 + 1 * (y 1).val = (i 1).val; rw [e1, h1]; omega
  | ⟨2, _⟩ => show win0_0.index t (2 : Fin 3) * 512 + 1 * (y 2).val = (i 2).val; rw [e2, h2]; omega

/-- The transposed-weight block of any point is the whole array. -/
theorem iblk1_apply (c : Dev nD) (t : Fin cfg0.N) (y : S32x512.Idx) :
    (iblk m c 1 t : Vec Ideal S32x512 .f32) y = arrW1 m c y := by
  obtain ⟨-, -, -, -, -, -, e0, e1, -⟩ := idx_facts t
  unfold iblk
  rw [View.read_apply]
  show V m c main_v2 _ = V m c main_v2 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 512 + 1 * (y 1).val = (y 1).val; rw [e1]; omega

/-- The first-bias block of any point is the whole row. -/
theorem iblk2_apply (c : Dev nD) (t : Fin cfg0.N) (y : S1x32.Idx) :
    (iblk m c 2 t : Vec Ideal S1x32 .f32) y = arrB1 m c y := by
  obtain ⟨-, -, -, -, -, -, -, -, e0, e1, -⟩ := idx_facts t
  unfold iblk
  rw [View.read_apply]
  show V m c main_v3 _ = V m c main_v3 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The second-weight block of any point is the whole array. -/
theorem iblk3_apply (c : Dev nD) (t : Fin cfg0.N) (y : S32x512.Idx) :
    (iblk m c 3 t : Vec Ideal S32x512 .f32) y = arrW2 m c y := by
  obtain ⟨-, -, -, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 512 + 1 * (y 1).val = (y 1).val; rw [e1]; omega

/-- The second-bias block of any point is the whole row. -/
theorem iblk4_apply (c : Dev nD) (t : Fin cfg0.N) (y : S1x512.Idx) :
    (iblk m c 4 t : Vec Ideal S1x512 .f32) y = arrB2 m c y := by
  obtain ⟨-, -, -, -, -, -, -, -, -, -, -, -, e0, e1⟩ := idx_facts t
  unfold iblk
  rw [View.read_apply]
  show V m c main_v4 _ = V m c main_v4 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-! ## What a grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored value at any index of the block (the body's lemma with the index split into its coordinates). -/
theorem pay_at (x0 : Vec Ideal S196x32x512 .f32) (x1 : Vec Ideal S32x512 .f32) (x2 : Vec Ideal S1x32 .f32)
    (x3 : Vec Ideal S32x512 .f32) (x4 : Vec Ideal S1x512 .f32) (y : S196x32x512.Idx) :
    k0_pay1 x0 x1 x2 x3 x4 y
      = x0 y * gate (fun k => (∑ s' : Fin 196, x0 (ix3 s' (y 1) k)) * invHW) (fun k j => x1 (ix2 j k))
          (fun j => x2 (ix2 0 j)) (fun j c' => x3 (ix2 j c')) (fun c' => x4 (ix2 0 c')) (y 2) := by
  obtain ⟨s, r, c, rfl⟩ : ∃ (s : Fin 196) (r : Fin 32) (c : Fin 512), y = ix3 s r c := ⟨y 0, y 1, y 2, eq_ix3 y⟩
  exact Body.pay_apply x0 x1 x2 x3 x4 s r c

/-- The region's result array: the laid-out input times the gate of its sample's pooled row, with the staged
    parameter arrays as the launch finds them. -/
def slabs (c : Dev nD) : S196x128x512.Idx → EReal := fun i =>
  arrX m c i
    * gate (fun k => (∑ s' : Fin 196, arrX m c (ix3 s' (i 1) k)) * invHW)
        (fun k j => arrW1 m c (ix2 j k))
        (fun j => arrB1 m c (ix2 0 j))
        (fun j c' => arrW2 m c (ix2 j c'))
        (fun c' => arrB2 m c (ix2 0 c')) (i 2)

/-- WHAT POINT t WRITES BACK is its slab of `slabs`. -/
theorem flushed_eq (c : Dev nD) (t : Fin cfg0.N) :
    (dats m 0 c).flushed 5 t = ((cfg0.win 5).blk t).view.read (Elt Ideal) (slabs m c) := by
  show (cfg0.win 5).cut (grid0.coords t) ((dats m 0 c).after 5 t) = _
  rw [after0_5]
  unfold out0_5
  rw [View.canon_unit_zero hz3]
  simp only [View.ld_unit_zero (S := S196x32x512) hz3, View.ld_unit_zero (S := S32x512) hz2,
    View.ld_unit_zero (S := S1x32) hz2, View.ld_unit_zero (S := S1x512) hz2]
  obtain ⟨-, -, -, e0, e1, e2, -⟩ := idx_facts t
  funext y
  show k0_pay1 (iblk m c 0 t) (iblk m c 1 t) (iblk m c 2 t) (iblk m c 3 t) (iblk m c 4 t) y
    = slabs m c (((cfg0.win 5).blk t).view.emb y)
  refine (pay_at _ _ _ _ _ y).trans ?_
  have i0 : ((((cfg0.win 5).blk t).view.emb y) 0).val = (y 0).val := by
    show win0_5.index t (0 : Fin 3) * 196 + 1 * (y 0).val = (y 0).val; rw [e0]; omega
  have i1 : ((((cfg0.win 5).blk t).view.emb y) 1).val = 32 * t.val + (y 1).val := by
    show win0_5.index t (1 : Fin 3) * 32 + 1 * (y 1).val = 32 * t.val + (y 1).val; rw [e1]; omega
  have i2 : ((((cfg0.win 5).blk t).view.emb y) 2).val = (y 2).val := by
    show win0_5.index t (2 : Fin 3) * 512 + 1 * (y 2).val = (y 2).val; rw [e2]; omega
  unfold slabs
  refine congr (congrArg HMul.hMul (iblk0_apply m c t y _ i0 i1 i2)) (gate_congr (fun k => ?_) (fun k j => ?_)
    (fun j => ?_) (fun j c' => ?_) (fun c' => ?_) (Fin.ext i2.symm))
  · exact congrArg (· * invHW) (Finset.sum_congr rfl fun s' _ => iblk0_apply m c t _ _ rfl i1 rfl)
  · exact iblk1_apply m c t _
  · exact iblk2_apply m c t _
  · exact iblk3_apply m c t _
  · exact iblk4_apply m c t _

/-! ## The region's result array after the run -/

/-- An index is in point t's output block iff each coordinate is in the block's range on its axis. -/
theorem mem_blk (t : Fin cfg0.N) (i : S196x128x512.Idx) :
    i ∈ ((cfg0.win 5).blk t).view.set ↔ ∀ a : Fin 3, win0_5.index t a * S196x32x512.size a ≤ (i a).val
      ∧ (i a).val < win0_5.index t a * S196x32x512.size a + S196x32x512.size a := by
  show i ∈ ((View.whole main_v5).slice (win0_5.rect t)).set ↔ _
  rw [View.set_slice_whole, Rect.mem_set_unit]
  exact Iff.rfl

/-- The four slabs tile the array: sample n lies in the slab of point n / 32. -/
theorem cover (i : S196x128x512.Idx) :
    ∃ t : Fin cfg0.N, (cfg0.win 5).flush t = true ∧ i ∈ ((cfg0.win 5).blk t).view.set := by
  have hi0 : (i 0).val < 196 := (i 0).isLt
  have hi1 : (i 1).val < 128 := (i 1).isLt
  have hi2 : (i 2).val < 512 := (i 2).isLt
  have hN : cfg0.N = 4 := N_0
  have ht : (i 1).val / 32 < cfg0.N := by rw [hN]; omega
  refine ⟨⟨(i 1).val / 32, ht⟩, flush0_5 _, ?_⟩
  rw [mem_blk]
  obtain ⟨-, -, -, e0, e1, e2, -⟩ := idx_facts ⟨(i 1).val / 32, ht⟩
  intro a
  match a with
  | ⟨0, _⟩ =>
    show win0_5.index ⟨(i 1).val / 32, ht⟩ (0 : Fin 3) * 196 ≤ (i 0).val
      ∧ (i 0).val < win0_5.index ⟨(i 1).val / 32, ht⟩ (0 : Fin 3) * 196 + 196
    rw [e0]; omega
  | ⟨1, _⟩ =>
    show win0_5.index ⟨(i 1).val / 32, ht⟩ (1 : Fin 3) * 32 ≤ (i 1).val
      ∧ (i 1).val < win0_5.index ⟨(i 1).val / 32, ht⟩ (1 : Fin 3) * 32 + 32
    rw [e1]
    show (i 1).val / 32 * 32 ≤ (i 1).val ∧ (i 1).val < (i 1).val / 32 * 32 + 32
    omega
  | ⟨2, _⟩ =>
    show win0_5.index ⟨(i 1).val / 32, ht⟩ (2 : Fin 3) * 512 ≤ (i 2).val
      ∧ (i 2).val < win0_5.index ⟨(i 1).val / 32, ht⟩ (2 : Fin 3) * 512 + 512
    rw [e2]; omega

/-- So the region's result array ends holding `slabs`. -/
theorem final (c : Dev nD) : (dats m 0 c).arrAt 5 cfg0.N = slabs m c :=
  (dats m 0 c).arrAt_eq_of_cover 5 (slabs m c) (fun t _ => flushed_eq m c t) cover

/-! ## The host lines after the launch -/

/-- The program's result array after the run. -/
abbrev outArr (c : Dev nD) : S128x512x14x14.Idx → EReal :=
  Pipeline.afterTail₀ cfgs (dats m) 0 (V0 m) [hostOps1] c main_v7

/-- The lines after the launch un-flatten the spatial axis of the region's result and transpose back. -/
theorem tail_eq (c : Dev nD) :
    outArr m c = transpose S128x512x14x14 [2, 3, 0, 1]
      (shapeCast S14x14x128x512 (slabs m c) shapeCasts_S196x128x512_S14x14x128x512)
      transposes_S14x14x128x512_S128x512x14x14_2_3_0_1 := by
  have hw : Pipeline.withArrays (cfgs 0).spec c (V0 m c) (fun w => (dats m 0 c).arrAt w (cfgs 0).N)
      (Proc.devRef .tc main_v5) = slabs m c :=
    (Pipeline.withArrays_arr spec0 launch0.win.arr_inj c _ _ 5).trans (final m c)
  unfold outArr Pipeline.afterTail₀
  show StableHlo.after hostOps1 _ (Proc.devRef .tc main_v7) = _
  after_results
  rw [hw]
  rfl

/-- The result at (n, k, h, w) is the block's value there: the argument's entry times the gate of sample n's
    pooled row. -/
theorem out_apply (c : Dev nD) (n : Fin 128) (k : Fin 512) (h w : Fin 14) :
    outArr m c (ix4 n k h w)
      = result (argX m c) (argW1 m c) (argB1 m c) (argW2 m c) (argB2 m c) (ix4 n k h w) := by
  have hs : 14 * h.val + w.val < 196 := by have := h.isLt; have := w.isLt; omega
  rw [tail_eq]
  refine (transpose_apply _ _ _ _ (ix4 h w n k) fun b => by
    match b with
    | ⟨0, _⟩ => rfl
    | ⟨1, _⟩ => rfl
    | ⟨2, _⟩ => rfl
    | ⟨3, _⟩ => rfl).trans ?_
  refine (shapeCast_apply _ _ _ (ix3 (⟨14 * h.val + w.val, hs⟩ : Fin 196) n k) ?_).trans ?_
  · rw [Shape.rowMajor_val_four, Shape.rowMajor_val_three]
    show ((14 * h.val + w.val) * 128 + n.val) * 512 + k.val = ((h.val * 14 + w.val) * 128 + n.val) * 512 + k.val
    rw [Nat.mul_comm 14 h.val]
  · have hr : rowOf (⟨14 * h.val + w.val, hs⟩ : Fin 196) = h := Fin.ext (by
      show (14 * h.val + w.val) / 14 = h.val; have := w.isLt; omega)
    have hc : colOf (⟨14 * h.val + w.val, hs⟩ : Fin 196) = w := Fin.ext (by
      show (14 * h.val + w.val) % 14 = w.val; have := w.isLt; omega)
    unfold slabs result
    refine congr (congrArg HMul.hMul ?_) (gate_congr (fun k' => ?_) (fun k' j => ?_) (fun j => ?_)
      (fun j c' => ?_) (fun c' => ?_) rfl)
    · rw [entry_x, hr, hc]
    · unfold pooled
      exact congrArg (· * invHW) (Finset.sum_congr rfl fun s' _ => entry_x m c s' n k')
    · exact entry_w1 m c j k'
    · exact entry_b1 m c j
    · exact congrFun (V_main_arg3 m c) (ix2 j c')
    · exact entry_b2 m c c'

/-- The result array is the block, as a whole array. -/
theorem out_eq (c : Dev nD) : outArr m c = result (argX m c) (argW1 m c) (argB1 m c) (argW2 m c) (argB2 m c) := by
  funext i
  obtain ⟨n, k, h, w, rfl⟩ : ∃ (n : Fin 128) (k : Fin 512) (h w : Fin 14), i = ix4 n k h w :=
    ⟨i 0, i 1, i 2, i 3, eq_ix4 i⟩
  exact out_apply m c n k h w

/-! ## The run, read -/

/-- Every weakly fair execution terminates with the result array at the block of the arguments and the arguments
    unchanged. -/
theorem run : θ_run defs (onTc (τ := τ) (main (F := Ideal))) ⟨m, fun _ => 0, ρ⟩ fun r => ∀ c : Dev nD,
      r.2.mem ((c : Thread nD τ).loc main_v7) = result (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v7 (Pipeline.mem_restRefs_of main_v7 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Hand
end
-- ==== Proof.ReferenceBody.lean ====
/-
  The reference's body at one grid point, read at an index.

  The body holds an 8 × 512 × 256 block of the zero-padded input (sample within the slab, channel, padded spatial
  lane), sums it along the lanes, scales by the pooling constant, applies the two small linear layers and the
  logistic function, and multiplies the block by the resulting 8 × 512 matrix of scales, the same along every
  lane. At (r, c, l) that is the block's entry times the gate of row r's pooled means over the 256 lanes.
-/
import proofs.«129813_g2000007151489569_pallasbulk_1225_13_alg».proof.Proof.Gen.ReferenceIdeal.Skeleton
import proofs.«129813_g2000007151489569_pallasbulk_1225_13_alg».proof.Proof.Gate
import proofs.«129813_g2000007151489569_pallasbulk_1225_13_alg».proof.Proof.LibBlockReads

open scoped BigOperators

noncomputable section

namespace Cert.ReferenceIdeal.Body

open Idealize.ShloMosaic Idealize.ShloMosaic.ValueIdx
open Cert.ReferenceIdeal Cert.ReferenceIdeal.Gen Cert.Lib.BlockReads Cert.SqEx

/-- The stored value at (r, c, l): the block's entry times the gate of row r's pooled means along the lanes. -/
theorem pay_apply (x0 : Vec Ideal S8x512x256 .f32) (x1 : Vec Ideal S512x32 .f32) (x2 : Vec Ideal S1x32 .f32)
    (x3 : Vec Ideal S32x512 .f32) (x4 : Vec Ideal S1x512 .f32) (r : Fin 8) (c : Fin 512) (l : Fin 256) :
    k0_pay1 x0 x1 x2 x3 x4 (ix3 r c l)
      = x0 (ix3 r c l) * gate (fun k => (∑ l' : Fin 256, x0 (ix3 r k l')) * invHW) (fun k j => x1 (ix2 k j))
          (fun j => x2 (ix2 0 j)) (fun j c' => x3 (ix2 j c')) (fun c' => x4 (ix2 0 c')) c := by
  unfold k0_pay1
  simp only [shapeCast_self]
  rw [mulf_apply, broadcast_cols_apply]
  refine congrArg (x0 (ix3 r c l) * ·) ?_
  unfold gate
  show Ideal.logistic _ = Ideal.logistic _
  refine congrArg Ideal.logistic ?_
  rw [addf_apply, matmul_zero_rows_apply _ rfl rfl rfl rfl rfl rfl, broadcast_row_apply]
  refine congrArg (· + x4 (ix2 0 c)) (Finset.sum_congr rfl fun j _ => ?_)
  refine congrArg (· * x3 (ix2 j c)) ?_
  rw [maximumf_apply, addf_apply, matmul_zero_rows_apply _ rfl rfl rfl rfl rfl rfl, broadcast_row_apply, broadcast_apply]
  rw [show (FloatOps.ofBits (F := Ideal) .f32 0x00000000#32 : EReal) = 0 from Ideal.ofBits_zero_f32]
  refine congrArg (fun z => max (z + x2 (ix2 0 j)) 0) (Finset.sum_congr rfl fun k _ => ?_)
  rw [mulf_apply]
  exact congrArg (fun z => z * invHW * x1 (ix2 k j)) (sum_last_axis_apply x0 _ _ _ _ r k)

end Cert.ReferenceIdeal.Body

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.ReferenceValue.lean ====
/-
  The reference's value: what its result array holds after the run, as a function of the argument arrays.

  Before the launch the host lines flatten the 14 × 14 grid (position s = 14 · row + column), pad the 196
  positions with zeros to 256 lanes, and give the two biases a leading unit axis. Grid point t works on samples
  8 t … 8 t + 7: its input and output blocks are the slab of those samples, every channel, every lane; the
  parameter blocks are the whole parameter arrays. So what point t writes back is that slab of ONE array: the
  padded input times the gate of each sample's pooled row over the 256 lanes. The sixteen slabs tile the array;
  the host lines after the launch drop the padding lanes and un-flatten. A sum over the 256 lanes is the sum over
  the 196 real positions, since the rest are zeros.
-/
import proofs.«129813_g2000007151489569_pallasbulk_1225_13_alg».proof.Proof.Gen.ReferenceIdeal.Frame
import proofs.«129813_g2000007151489569_pallasbulk_1225_13_alg».proof.Proof.ReferenceBody
import proofs.«129813_g2000007151489569_pallasbulk_1225_13_alg».proof.Proof.LibIdealSums
import Idealize.ShloMosaic.Lib.Pipeline.Value
import Idealize.ShloMosaic.Lib.StableHlo.Run
import Idealize.ShloMosaic.Lib.KernelVsHost
import Idealize.ShloMosaic.Lib.Tactic

set_option maxRecDepth 16384

open scoped BigOperators

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.SqEx Idealize.ShloMosaic.StableHlo

variable (m : (ℓ : Loc nD τ sig) → Buf (Elt Ideal) ℓ) (ρ : Dev nD → PrngReg)

/-! ## The arrays, as functions into the extended reals -/

/-- The argument arrays on core `c`. -/
abbrev argX (c : Dev nD) : S128x512x14x14.Idx → EReal := m ((c : Thread nD τ).loc main_arg0)
abbrev argW1 (c : Dev nD) : S512x32.Idx → EReal := m ((c : Thread nD τ).loc main_arg1)
abbrev argB1 (c : Dev nD) : S32.Idx → EReal := m ((c : Thread nD τ).loc main_arg2)
abbrev argW2 (c : Dev nD) : S32x512.Idx → EReal := m ((c : Thread nD τ).loc main_arg3)
abbrev argB2 (c : Dev nD) : S512.Idx → EReal := m ((c : Thread nD τ).loc main_arg4)

/-- The staged arrays as the launch finds them: the flattened input padded with zeros to 256 lanes, the two
    weights, the two biases as rows. -/
abbrev arrX (c : Dev nD) : S128x512x256.Idx → EReal := V m c main_v1
abbrev arrW1 (c : Dev nD) : S512x32.Idx → EReal := V m c main_arg1
abbrev arrB1 (c : Dev nD) : S1x32.Idx → EReal := V m c main_v2
abbrev arrW2 (c : Dev nD) : S32x512.Idx → EReal := V m c main_arg3
abbrev arrB2 (c : Dev nD) : S1x512.Idx → EReal := V m c main_v3

/-! ## What the launch finds in each staged array -/

/-- The padding value: the integer zero converted to a float is the extended real zero. -/
theorem pad_value (i : S_.Idx) : (sitofp (F := Ideal) .f32 (constantI S_ 32 0#32)) i = (0 : EReal) := by
  show (((0#32 : BitVec 32).toInt : ℝ) : EReal) = 0
  simp

/-- The padded input is the flattened argument padded with the converted integer zero to 256 lanes. -/
theorem arrX_eq (c : Dev nD) :
    arrX m c = pad S128x512x256 ![0, 0, 0] ![0, 0, 60] ![0, 0, 0]
      (shapeCast S128x512x196 (argX m c) shapeCasts_S128x512x14x14_S128x512x196)
      (sitofp (F := Ideal) .f32 (constantI S_ 32 0#32)) pads_S128x512x196_S128x512x256_000_000_0600 h_S_ := by
  dsimp only [arrX, V, V0]
  simp only [hostOps0, hostOps0_1, hostOps0_2, List.flatten_cons, List.flatten_nil, List.append_nil, List.cons_append,
    List.nil_append]
  after_results
  rfl

/-- On the 196 real lanes the padded input at (n, k, s) is the argument at (n, k, row s, column s). -/
theorem entry_x (c : Dev nD) (n : Fin 128) (k : Fin 512) (s : Fin 196) :
    arrX m c (ix3 n k (Fin.castLE (by decide : 196 ≤ 256) s)) = argX m c (ix4 n k (rowOf s) (colOf s)) := by
  rw [arrX_eq]
  refine (pad_apply_of_inside _ _ _ _ _ _ _ _ (ix3 n k s) fun a => ?_).trans ?_
  · match a with
    | ⟨0, _⟩ => show n.val = 0 + n.val * (0 + 1); omega
    | ⟨1, _⟩ => show k.val = 0 + k.val * (0 + 1); omega
    | ⟨2, _⟩ => show s.val = 0 + s.val * (0 + 1); omega
  · refine shapeCast_apply _ _ _ (ix4 n k (rowOf s) (colOf s)) ?_
    rw [Shape.rowMajor_val_four, Shape.rowMajor_val_three]
    show ((n.val * 512 + k.val) * 14 + s.val / 14) * 14 + s.val % 14 = (n.val * 512 + k.val) * 196 + s.val
    have := Nat.div_add_mod s.val 14
    omega

/-- On the 60 padding lanes it is zero. -/
theorem entry_x_pad (c : Dev nD) (n : Fin 128) (k : Fin 512) (l : Fin 256) (hl : 196 ≤ l.val) :
    arrX m c (ix3 n k l) = 0 := by
  rw [arrX_eq]
  refine (pad_apply_of_not_inside _ _ _ _ _ _ _ _ (2 : Fin 3) ?_).trans (pad_value _)
  show ¬(0 ≤ l.val ∧ (l.val - 0) % (0 + 1) = 0 ∧ (l.val - 0) / (0 + 1) < 196)
  omega

/-- The first bias as a 1 × 32 row. -/
theorem entry_b1 (c : Dev nD) (j : Fin 32) : arrB1 m c (ix2 0 j) = argB1 m c (ix1 j) := by
  have e : arrB1 m c = shapeCast S1x32 (argB1 m c) shapeCasts_S32_S1x32 := by
    dsimp only [arrB1, V, V0]
    simp only [hostOps0, hostOps0_1, hostOps0_2, List.flatten_cons, List.flatten_nil, List.append_nil,
      List.cons_append, List.nil_append]
    after_results
    rfl
  rw [e]
  refine shapeCast_apply _ _ _ (ix1 j) ?_
  rw [Shape.rowMajor_val_one, Shape.rowMajor_val_two]
  show j.val = 0 * 32 + j.val
  omega

/-- The second bias as a 1 × 512 row. -/
theorem entry_b2 (c : Dev nD) (k : Fin 512) : arrB2 m c (ix2 0 k) = argB2 m c (ix1 k) := by
  have e : arrB2 m c = shapeCast S1x512 (argB2 m c) shapeCasts_S512_S1x512 := by
    dsimp only [arrB2, V, V0]
    simp only [hostOps0, hostOps0_1, hostOps0_2, List.flatten_cons, List.flatten_nil, List.append_nil,
      List.cons_append, List.nil_append]
    after_results
    rfl
  rw [e]
  refine shapeCast_apply _ _ _ (ix1 k) ?_
  rw [Shape.rowMajor_val_one, Shape.rowMajor_val_two]
  show k.val = 0 * 512 + k.val
  omega

/-! ## The blocks of a grid point -/

/-- The printed index maps, decided over the sixteen grid points: the input's and the output's block index is
    (t, 0, 0); every parameter's block index is (0, 0). -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The input block of point t at (r, k, l) is the padded input at (8 t + r, k, l). -/
theorem iblk0_apply (c : Dev nD) (t : Fin cfg0.N) (y : S8x512x256.Idx) (i : S128x512x256.Idx)
    (h0 : (i 0).val = 8 * t.val + (y 0).val) (h1 : (i 1).val = (y 1).val) (h2 : (i 2).val = (y 2).val) :
    (iblk m c 0 t : Vec Ideal S8x512x256 .f32) y = arrX m c i := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 8 + 1 * (y 0).val = (i 0).val; rw [e0, h0]; omega
  | ⟨1, _⟩ => show win0_0.index t (1 : Fin 3) * 512 + 1 * (y 1).val = (i 1).val; rw [e1, h1]; omega
  | ⟨2, _⟩ => show win0_0.index t (2 : Fin 3) * 256 + 1 * (y 2).val = (i 2).val; rw [e2, h2]; omega

/-- The first-weight block of any point is the whole array. -/
theorem iblk1_apply (c : Dev nD) (t : Fin cfg0.N) (y : S512x32.Idx) :
    (iblk m c 1 t : Vec Ideal S512x32 .f32) y = arrW1 m c y := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 32 + 1 * (y 1).val = (y 1).val; rw [e1]; omega

/-- The first-bias block of any point is the whole row. -/
theorem iblk2_apply (c : Dev nD) (t : Fin cfg0.N) (y : S1x32.Idx) :
    (iblk m c 2 t : Vec Ideal S1x32 .f32) y = arrB1 m c y := by
  obtain ⟨-, -, -, -, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The second-weight block of any point is the whole array. -/
theorem iblk3_apply (c : Dev nD) (t : Fin cfg0.N) (y : S32x512.Idx) :
    (iblk m c 3 t : Vec Ideal S32x512 .f32) y = arrW2 m c y := by
  obtain ⟨-, -, -, -, -, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 32 + 1 * (y 0).val = (y 0).val; rw [e0]; omega
  | ⟨1, _⟩ => show win0_3.index t (1 : Fin 2) * 512 + 1 * (y 1).val = (y 1).val; rw [e1]; omega

/-- The second-bias block of any point is the whole row. -/
theorem iblk4_apply (c : Dev nD) (t : Fin cfg0.N) (y : S1x512.Idx) :
    (iblk m c 4 t : Vec Ideal S1x512 .f32) y = arrB2 m c y := by
  obtain ⟨-, -, -, -, -, -, -, -, -, -, -, -, e0, e1⟩ := idx_facts t
  unfold iblk
  rw [View.read_apply]
  show V m c main_v3 _ = V m c main_v3 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-! ## What a grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored value at any index of the block (the body's lemma with the index split into its coordinates). -/
theorem pay_at (x0 : Vec Ideal S8x512x256 .f32) (x1 : Vec Ideal S512x32 .f32) (x2 : Vec Ideal S1x32 .f32)
    (x3 : Vec Ideal S32x512 .f32) (x4 : Vec Ideal S1x512 .f32) (y : S8x512x256.Idx) :
    k0_pay1 x0 x1 x2 x3 x4 y
      = x0 y * gate (fun k => (∑ l' : Fin 256, x0 (ix3 (y 0) k l')) * invHW) (fun k j => x1 (ix2 k j))
          (fun j => x2 (ix2 0 j)) (fun j c' => x3 (ix2 j c')) (fun c' => x4 (ix2 0 c')) (y 1) := by
  obtain ⟨r, c, l, rfl⟩ : ∃ (r : Fin 8) (c : Fin 512) (l : Fin 256), y = ix3 r c l := ⟨y 0, y 1, y 2, eq_ix3 y⟩
  exact Body.pay_apply x0 x1 x2 x3 x4 r c l

/-- The region's result array: the padded input times the gate of its sample's pooled row over the 256 lanes,
    with the staged parameter arrays as the launch finds them. -/
def slabs (c : Dev nD) : S128x512x256.Idx → EReal := fun i =>
  arrX m c i
    * gate (fun k => (∑ l' : Fin 256, arrX m c (ix3 (i 0) k l')) * invHW)
        (fun k j => arrW1 m c (ix2 k j))
        (fun j => arrB1 m c (ix2 0 j))
        (fun j c' => arrW2 m c (ix2 j c'))
        (fun c' => arrB2 m c (ix2 0 c')) (i 1)

/-- WHAT POINT t WRITES BACK is its slab of `slabs`. -/
theorem flushed_eq (c : Dev nD) (t : Fin cfg0.N) :
    (dats m 0 c).flushed 5 t = ((cfg0.win 5).blk t).view.read (Elt Ideal) (slabs m c) := by
  show (cfg0.win 5).cut (grid0.coords t) ((dats m 0 c).after 5 t) = _
  rw [after0_5]
  unfold out0_5
  rw [View.canon_unit_zero hz3]
  simp only [View.ld_unit_zero (S := S8x512x256) hz3, View.ld_unit_zero (S := S512x32) hz2,
    View.ld_unit_zero (S := S32x512) hz2, View.ld_unit_zero (S := S1x32) hz2, View.ld_unit_zero (S := S1x512) hz2]
  obtain ⟨-, -, -, e0, e1, e2, -⟩ := idx_facts t
  funext y
  show k0_pay1 (iblk m c 0 t) (iblk m c 1 t) (iblk m c 2 t) (iblk m c 3 t) (iblk m c 4 t) y
    = slabs m c (((cfg0.win 5).blk t).view.emb y)
  refine (pay_at _ _ _ _ _ y).trans ?_
  have i0 : ((((cfg0.win 5).blk t).view.emb y) 0).val = 8 * t.val + (y 0).val := by
    show win0_5.index t (0 : Fin 3) * 8 + 1 * (y 0).val = 8 * t.val + (y 0).val; rw [e0]; omega
  have i1 : ((((cfg0.win 5).blk t).view.emb y) 1).val = (y 1).val := by
    show win0_5.index t (1 : Fin 3) * 512 + 1 * (y 1).val = (y 1).val; rw [e1]; omega
  have i2 : ((((cfg0.win 5).blk t).view.emb y) 2).val = (y 2).val := by
    show win0_5.index t (2 : Fin 3) * 256 + 1 * (y 2).val = (y 2).val; rw [e2]; omega
  unfold slabs
  refine congr (congrArg HMul.hMul (iblk0_apply m c t y _ i0 i1 i2)) (gate_congr (fun k => ?_) (fun k j => ?_)
    (fun j => ?_) (fun j c' => ?_) (fun c' => ?_) (Fin.ext i1.symm))
  · exact congrArg (· * invHW) (Finset.sum_congr rfl fun l' _ => iblk0_apply m c t _ _ i0 rfl rfl)
  · exact iblk1_apply m c t _
  · exact iblk2_apply m c t _
  · exact iblk3_apply m c t _
  · exact iblk4_apply m c t _

/-! ## The region's result array after the run -/

/-- An index is in point t's output block iff each coordinate is in the block's range on its axis. -/
theorem mem_blk (t : Fin cfg0.N) (i : S128x512x256.Idx) :
    i ∈ ((cfg0.win 5).blk t).view.set ↔ ∀ a : Fin 3, win0_5.index t a * S8x512x256.size a ≤ (i a).val
      ∧ (i a).val < win0_5.index t a * S8x512x256.size a + S8x512x256.size a := by
  show i ∈ ((View.whole main_v4).slice (win0_5.rect t)).set ↔ _
  rw [View.set_slice_whole, Rect.mem_set_unit]
  exact Iff.rfl

/-- The sixteen slabs tile the array: sample n lies in the slab of point n / 8. -/
theorem cover (i : S128x512x256.Idx) :
    ∃ t : Fin cfg0.N, (cfg0.win 5).flush t = true ∧ i ∈ ((cfg0.win 5).blk t).view.set := by
  have hi0 : (i 0).val < 128 := (i 0).isLt
  have hi1 : (i 1).val < 512 := (i 1).isLt
  have hi2 : (i 2).val < 256 := (i 2).isLt
  have hN : cfg0.N = 16 := N_0
  have ht : (i 0).val / 8 < cfg0.N := by rw [hN]; omega
  refine ⟨⟨(i 0).val / 8, ht⟩, flush0_5 _, ?_⟩
  rw [mem_blk]
  obtain ⟨-, -, -, e0, e1, e2, -⟩ := idx_facts ⟨(i 0).val / 8, ht⟩
  intro a
  match a with
  | ⟨0, _⟩ =>
    show win0_5.index ⟨(i 0).val / 8, ht⟩ (0 : Fin 3) * 8 ≤ (i 0).val
      ∧ (i 0).val < win0_5.index ⟨(i 0).val / 8, ht⟩ (0 : Fin 3) * 8 + 8
    rw [e0]
    show (i 0).val / 8 * 8 ≤ (i 0).val ∧ (i 0).val < (i 0).val / 8 * 8 + 8
    omega
  | ⟨1, _⟩ =>
    show win0_5.index ⟨(i 0).val / 8, ht⟩ (1 : Fin 3) * 512 ≤ (i 1).val
      ∧ (i 1).val < win0_5.index ⟨(i 0).val / 8, ht⟩ (1 : Fin 3) * 512 + 512
    rw [e1]; omega
  | ⟨2, _⟩ =>
    show win0_5.index ⟨(i 0).val / 8, ht⟩ (2 : Fin 3) * 256 ≤ (i 2).val
      ∧ (i 2).val < win0_5.index ⟨(i 0).val / 8, ht⟩ (2 : Fin 3) * 256 + 256
    rw [e2]; omega

/-- So the region's result array ends holding `slabs`. -/
theorem final (c : Dev nD) : (dats m 0 c).arrAt 5 cfg0.N = slabs m c :=
  (dats m 0 c).arrAt_eq_of_cover 5 (slabs m c) (fun t _ => flushed_eq m c t) cover

/-! ## The host lines after the launch -/

/-- The program's result array after the run. -/
abbrev outArr (c : Dev nD) : S128x512x14x14.Idx → EReal :=
  Pipeline.afterTail₀ cfgs (dats m) 0 (V0 m) [hostOps1] c main_v6

/-- The lines after the launch cut the 196 real lanes out of the region's result and un-flatten them. -/
theorem tail_eq (c : Dev nD) :
    outArr m c = shapeCast S128x512x14x14
      (extractStridedSlice S128x512x196 ![0, 0, 0] (slabs m c) slices_S128x512x256_S128x512x196_0_0_0)
      shapeCasts_S128x512x196_S128x512x14x14 := by
  have hw : Pipeline.withArrays (cfgs 0).spec c (V0 m c) (fun w => (dats m 0 c).arrAt w (cfgs 0).N)
      (Proc.devRef .tc main_v4) = slabs m c :=
    (Pipeline.withArrays_arr spec0 launch0.win.arr_inj c _ _ 5).trans (final m c)
  unfold outArr Pipeline.afterTail₀
  show StableHlo.after hostOps1 _ (Proc.devRef .tc main_v6) = _
  after_results
  rw [hw]
  rfl

/-- The result at (n, k, h, w) is the block's value there: the argument's entry times the gate of sample n's
    pooled row. The 60 padding lanes add zeros to each pooled sum. -/
theorem out_apply (c : Dev nD) (n : Fin 128) (k : Fin 512) (h w : Fin 14) :
    outArr m c (ix4 n k h w)
      = result (argX m c) (argW1 m c) (argB1 m c) (argW2 m c) (argB2 m c) (ix4 n k h w) := by
  have hs : 14 * h.val + w.val < 196 := by have := h.isLt; have := w.isLt; omega
  rw [tail_eq]
  refine (shapeCast_apply _ _ _ (ix3 n k (⟨14 * h.val + w.val, hs⟩ : Fin 196)) ?_).trans ?_
  · rw [Shape.rowMajor_val_three, Shape.rowMajor_val_four]
    show (n.val * 512 + k.val) * 196 + (14 * h.val + w.val) = ((n.val * 512 + k.val) * 14 + h.val) * 14 + w.val
    omega
  refine (extractStridedSlice_apply _ _ _ _
    (ix3 n k (Fin.castLE (by decide : 196 ≤ 256) (⟨14 * h.val + w.val, hs⟩ : Fin 196))) fun a => ?_).trans ?_
  · match a with
    | ⟨0, _⟩ => show n.val = 0 + n.val; omega
    | ⟨1, _⟩ => show k.val = 0 + k.val; omega
    | ⟨2, _⟩ => show 14 * h.val + w.val = 0 + (14 * h.val + w.val); omega
  · have hr : rowOf (⟨14 * h.val + w.val, hs⟩ : Fin 196) = h := Fin.ext (by
      show (14 * h.val + w.val) / 14 = h.val; have := w.isLt; omega)
    have hc : colOf (⟨14 * h.val + w.val, hs⟩ : Fin 196) = w := Fin.ext (by
      show (14 * h.val + w.val) % 14 = w.val; have := w.isLt; omega)
    unfold slabs result
    refine congr (congrArg HMul.hMul ?_) (gate_congr (fun k' => ?_) (fun k' j => ?_) (fun j => ?_)
      (fun j c' => ?_) (fun c' => ?_) rfl)
    · rw [entry_x, hr, hc]
    · unfold pooled
      refine congrArg (· * invHW) ?_
      refine (Cert.Lib.IdealSums.sum_fin_pad (by decide : 196 ≤ 256) (fun l' : Fin 256 => arrX m c (ix3 n k' l'))
        (fun l' hl' => entry_x_pad m c n k' l' hl')).trans ?_
      exact Finset.sum_congr rfl fun s' _ => entry_x m c n k' s'
    · exact congrFun (V_main_arg1 m c) (ix2 k' j)
    · exact entry_b1 m c j
    · exact congrFun (V_main_arg3 m c) (ix2 j c')
    · exact entry_b2 m c c'

/-- The result array is the block, as a whole array. -/
theorem out_eq (c : Dev nD) : outArr m c = result (argX m c) (argW1 m c) (argB1 m c) (argW2 m c) (argB2 m c) := by
  funext i
  obtain ⟨n, k, h, w, rfl⟩ : ∃ (n : Fin 128) (k : Fin 512) (h w : Fin 14), i = ix4 n k h w :=
    ⟨i 0, i 1, i 2, i 3, eq_ix4 i⟩
  exact out_apply m c n k h w

/-! ## The run, read -/

/-- Every weakly fair execution terminates with the result array at the block of the arguments and the arguments
    unchanged. -/
theorem run : θ_run defs (onTc (τ := τ) (main (F := Ideal))) ⟨m, fun _ => 0, ρ⟩ fun r => ∀ c : Dev nD,
      r.2.mem ((c : Thread nD τ).loc main_v6) = result (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (out_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.Hand
end
-- ==== Proof.lean ====
/-
  The squeeze-and-excite block: a kernel working on the input laid out as (spatial position, sample, channel) in
  slabs of 32 samples, against a kernel working on the input flattened to (sample, channel, spatial position),
  zero-padded from 196 to 256 positions, in slabs of 8 samples.

  On the extended reals both compute, for every sample n, channel c and spatial position (h, w),

      x[n, c, h, w] · logistic (Σ_j max (Σ_k pooled[n, k] · w1[k, j] + b1[j], 0) · w2[j, c] + b2[c]),
      pooled[n, k] = (Σ over the 196 positions of x[n, k, ·, ·]) · (the float nearest 1/196, read exactly).

  Each side's result array is read off its run in its own module: what one grid point stores is the block's entry
  times the gate of its sample's pooled row (the two matrix products as sums over the contracted coordinate, the
  pooling as a sum along the spatial axis); the points' slabs tile the launch's result array; and the host lines
  around the launch only re-arrange — a transpose and a flattening on one side, a flattening, a zero padding and a
  cut on the other. The two sides then differ in the order of a finite sum and in 60 zero terms added to each
  pooled sum, neither of which changes a sum of extended reals. No finiteness of the inputs is used.

  The three frame claims are the generated frame runs; the kernel's idealization rewrote nothing, so there is
  nothing to preserve.
-/
import proofs.«129813_g2000007151489569_pallasbulk_1225_13_alg».proof.Defs
import proofs.«129813_g2000007151489569_pallasbulk_1225_13_alg».proof.Proof.Gen.Kernel
import proofs.«129813_g2000007151489569_pallasbulk_1225_13_alg».proof.Proof.Gen.Kernel.Skeleton
import proofs.«129813_g2000007151489569_pallasbulk_1225_13_alg».proof.Proof.Gen.Kernel.Launch
import proofs.«129813_g2000007151489569_pallasbulk_1225_13_alg».proof.Proof.Gen.Kernel.Points
import proofs.«129813_g2000007151489569_pallasbulk_1225_13_alg».proof.Proof.Gen.Kernel.Frame
import proofs.«129813_g2000007151489569_pallasbulk_1225_13_alg».proof.Proof.Gen.KernelIdeal
import proofs.«129813_g2000007151489569_pallasbulk_1225_13_alg».proof.Proof.Gen.KernelIdeal.Skeleton
import proofs.«129813_g2000007151489569_pallasbulk_1225_13_alg».proof.Proof.Gen.KernelIdeal.Launch
import proofs.«129813_g2000007151489569_pallasbulk_1225_13_alg».proof.Proof.Gen.KernelIdeal.Points
import proofs.«129813_g2000007151489569_pallasbulk_1225_13_alg».proof.Proof.Gen.KernelIdeal.Frame
import proofs.«129813_g2000007151489569_pallasbulk_1225_13_alg».proof.Proof.Gen.ReferenceIdeal
import proofs.«129813_g2000007151489569_pallasbulk_1225_13_alg».proof.Proof.Gen.ReferenceIdeal.Skeleton
import proofs.«129813_g2000007151489569_pallasbulk_1225_13_alg».proof.Proof.Gen.ReferenceIdeal.Launch
import proofs.«129813_g2000007151489569_pallasbulk_1225_13_alg».proof.Proof.Gen.ReferenceIdeal.Points
import proofs.«129813_g2000007151489569_pallasbulk_1225_13_alg».proof.Proof.Gen.ReferenceIdeal.Frame
import proofs.«129813_g2000007151489569_pallasbulk_1225_13_alg».proof.Proof.Gen.Pre_finite_inputs
import proofs.«129813_g2000007151489569_pallasbulk_1225_13_alg».proof.Proof.KernelValue
import proofs.«129813_g2000007151489569_pallasbulk_1225_13_alg».proof.Proof.ReferenceValue
import Idealize.ShloMosaic.Adequacy
import Idealize.ShloMosaic.Init

noncomputable section

namespace Cert.Proof

open Idealize.ShloMosaic Idealize.SL.Sem

/-- The word-level kernel runs, faults nowhere and leaves its arguments as they were: its generated frame run. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The same for the reference read on the extended reals. -/
theorem frame_reference_ideal : Cert.frame_ReferenceIdeal := fun m ρ _ => Cert.ReferenceIdeal.Gen.frame m ρ

/-- The idealization changed no operation of the kernel. -/
theorem preserves : Cert.preserves_Kernel_KernelIdeal := trivial

/-- From memories agreeing on the five arguments both programs end with their result array at the block of those
    arguments, `Cert.SqEx.result`: one function, so the results are equal entry by entry. -/
theorem algebraic : Cert.algebraic_KernelIdeal_ReferenceIdeal := by
  intro m ρ m' ρ' _ hagree
  refine ⟨fun c => Cert.SqEx.result (Cert.KernelIdeal.Hand.argX m c) (Cert.KernelIdeal.Hand.argW1 m c)
    (Cert.KernelIdeal.Hand.argB1 m c) (Cert.KernelIdeal.Hand.argW2 m c) (Cert.KernelIdeal.Hand.argB2 m c),
    Cert.KernelIdeal.Hand.run m ρ, ?_⟩
  refine (θ_run Cert.ReferenceIdeal.defs _ _).mono (fun _ h c => ?_) (Cert.ReferenceIdeal.Hand.run m' ρ')
  obtain ⟨h0, h1, h2, h3, h4, h5⟩ := h c
  obtain ⟨a0, a1, a2, a3, a4⟩ := hagree c
  refine ⟨h0.trans ?_, h1, h2, h3, h4, h5⟩
  exact congr (congr (congr (congr (congrArg Cert.SqEx.result a0) a1) a2) a3) a4

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
